-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x12x20000 : Shape := ⟨3, ![8, 12, 20000]⟩
abbrev S320000 : Shape := ⟨1, ![320000]⟩
abbrev S12x64 : Shape := ⟨2, ![12, 64]⟩
abbrev S64 : Shape := ⟨1, ![64]⟩
abbrev S64x12 : Shape := ⟨2, ![64, 12]⟩
abbrev S12 : Shape := ⟨1, ![12]⟩
abbrev S_ : Shape := ⟨0, ![]⟩

class Facts : Prop where
  bcast_S_S8x12x20000 : S_.BroadcastsInDim S8x12x20000 (![] : Fin 0 → Fin S8x12x20000.rank)
  reducesTo_S8x12x20000_S_d0_1_2 : S8x12x20000.ReducesTo [0, 1, 2] S_
  h_S_ : 0 < S_.numel
  bcast_S_S320000 : S_.BroadcastsInDim S320000 (![] : Fin 0 → Fin S320000.rank)
  reducesTo_S320000_S_d0 : S320000.ReducesTo [0] S_
  bcast_S_S12x64 : S_.BroadcastsInDim S12x64 (![] : Fin 0 → Fin S12x64.rank)
  reducesTo_S12x64_S_d0_1 : S12x64.ReducesTo [0, 1] S_
  bcast_S_S64 : S_.BroadcastsInDim S64 (![] : Fin 0 → Fin S64.rank)
  reducesTo_S64_S_d0 : S64.ReducesTo [0] S_
  bcast_S_S64x12 : S_.BroadcastsInDim S64x12 (![] : Fin 0 → Fin S64x12.rank)
  reducesTo_S64x12_S_d0_1 : S64x12.ReducesTo [0, 1] S_
  bcast_S_S12 : S_.BroadcastsInDim S12 (![] : Fin 0 → Fin S12.rank)
  reducesTo_S12_S_d0 : S12.ReducesTo [0] S_

variable [Facts]

def fn_part1 {F : FTy → Type} [FloatOps F] (main_arg4 : FVec F S64x12 .f32) (main_arg5 : FVec F S12 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x12 .f32 := Host.absf main_arg4
  let main_cst_6 : FVec F S_ .f32 := constant S_ .f32 0x7F800000#32
  let main_v20 : FVec F S64x12 .f32 := broadcastInDim S64x12 ![] bcast_S_S64x12 main_cst_6
  let main_v21 : IVec S64x12 1 := cmpf .olt main_v19 main_v20
  let main_c_7 : IVec S_ 1 := constantI S_ 1 1#1
  let main_v22 : IVec S_ 1 := (fun x v => Host.reduce IntOp.andi x v reducesTo_S64x12_S_d0_1 h_S_) main_v21 main_c_7
  let main_v23 : IVec S_ 1 := andi main_v18 main_v22
  let main_v24 : FVec F S12 .f32 := Host.absf main_arg5
  let main_cst_8 : FVec F S_ .f32 := constant S_ .f32 0x7F800000#32
  let main_v25 : FVec F S12 .f32 := broadcastInDim S12 ![] bcast_S_S12 main_cst_8
  let main_v26 : IVec S12 1 := cmpf .olt main_v24 main_v25
  let main_c_9 : IVec S_ 1 := constantI S_ 1 1#1
  let main_v27 : IVec S_ 1 := (fun x v => Host.reduce IntOp.andi x v reducesTo_S12_S_d0 h_S_) main_v26 main_c_9
  let main_v28 : IVec S_ 1 := andi main_v23 main_v27
  main_v28

def fn {F : FTy → Type} [FloatOps F] (main_arg0 : FVec F S8x12x20000 .f32) (main_arg1 : FVec F S320000 .f32) (main_arg2 : FVec F S12x64 .f32) (main_arg3 : FVec F S64 .f32) (main_arg4 : FVec F S64x12 .f32) (main_arg5 : FVec F S12 .f32) (main_arg6 : IVec S320000 32) (main_arg7 : IVec S320000 32) : IVec S_ 1 :=
  let main_v0 : FVec F S8x12x20000 .f32 := Host.absf main_arg0
  let main_cst : FVec F S_ .f32 := constant S_ .f32 0x7F800000#32
  let main_v1 : FVec F S8x12x20000 .f32 := broadcastInDim S8x12x20000 ![] bcast_S_S8x12x20000 main_cst
  let main_v2 : IVec S8x12x20000 1 := cmpf .olt main_v0 main_v1
  let main_c : IVec S_ 1 := constantI S_ 1 1#1
  let main_v3 : IVec S_ 1 := (fun x v => Host.reduce IntOp.andi x v reducesTo_S8x12x20000_S_d0_1_2 h_S_) main_v2 main_c
  let main_v4 : FVec F S320000 .f32 := Host.absf main_arg1
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S12x64 .f32 := Host.absf main_arg2
  let main_cst_2 : FVec F S_ .f32 := constant S_ .f32 0x7F800000#32
  let main_v10 : FVec F S12x64 .f32 := broadcastInDim S12x64 ![] bcast_S_S12x64 main_cst_2
  let main_v11 : IVec S12x64 1 := cmpf .olt main_v9 main_v10
  let main_c_3 : IVec S_ 1 := constantI S_ 1 1#1
  let main_v12 : IVec S_ 1 := (fun x v => Host.reduce IntOp.andi x v reducesTo_S12x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S8x12x20000 : Shape := ⟨3, ![8, 12, 20000]⟩
abbrev S320000 : Shape := ⟨1, ![320000]⟩
abbrev S12x64 : Shape := ⟨2, ![12, 64]⟩
abbrev S64 : Shape := ⟨1, ![64]⟩
abbrev S64x12 : Shape := ⟨2, ![64, 12]⟩
abbrev S12 : Shape := ⟨1, ![12]⟩
abbrev S8x20000x12 : Shape := ⟨3, ![8, 20000, 12]⟩
abbrev S8x20000x64 : Shape := ⟨3, ![8, 20000, 64]⟩
abbrev S1x20000x12 : Shape := ⟨3, ![1, 20000, 12]⟩
abbrev S1x20000x64 : Shape := ⟨3, ![1, 20000, 64]⟩
abbrev S20000x12 : Shape := ⟨2, ![20000, 12]⟩
abbrev S20000x64 : Shape := ⟨2, ![20000, 64]⟩
abbrev S_ : Shape := ⟨0, ![]⟩
abbrev S320000x1 : Shape := ⟨2, ![320000, 1]⟩
abbrev S8x320000x64 : Shape := ⟨3, ![8, 320000, 64]⟩
abbrev S1x320000x1 : Shape := ⟨3, ![1, 320000, 1]⟩
abbrev S1x64 : Shape := ⟨2, ![1, 64]⟩
abbrev S1x12 : Shape := ⟨2, ![1, 12]⟩

abbrev nBuf : Space → Nat
  | .hbm => 34
  | .vmem => 12
  | .smem => 0
  | _ => 0

abbrev bufTy : (tb : Table) → Fin (tcTables nBuf tb) → BufTy
  | .hbm, ⟨0, _⟩ => ⟨S8x12x20000, .f32⟩
  | .hbm, ⟨1, _⟩ => ⟨S320000, .f32⟩
  | .hbm, ⟨2, _⟩ => ⟨S12x64, .f32⟩
  | .hbm, ⟨3, _⟩ => ⟨S64, .f32⟩
  | .hbm, ⟨4, _⟩ => ⟨S64x12, .f32⟩
  | .hbm, ⟨5, _⟩ => ⟨S12, .f32⟩
  | .hbm, ⟨6, _⟩ => ⟨S320000, .i32⟩
  | .hbm, ⟨7, _⟩ => ⟨S320000, .i32⟩
  | .hbm, ⟨8, _⟩ => ⟨S8x20000x12, .f32⟩
  | .hbm, ⟨9, _⟩ => ⟨S8x20000x64, .f32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S8x320000x64, .f32⟩
  | .hbm, ⟨19, _⟩ => ⟨S1x320000x1, .f32⟩
  | .hbm, ⟨20, _⟩ => ⟨S8x320000x64, .f32⟩
  | .hbm, ⟨21, _⟩ => ⟨S8x320000x64, .f32⟩
  | .hbm, ⟨22, _⟩ => ⟨S_, .f32⟩
  | .hbm, ⟨23, _⟩ => ⟨S8x20000x64, .f32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S8x20000x64, .f32⟩
  | .hbm, ⟨33, _⟩ => ⟨S8x20000x12, .f32⟩
  | .local _ .vmem, ⟨0, _⟩ => ⟨S1x20000x12, .f32⟩
  | .local _ .vmem, ⟨1, _⟩ => ⟨S1x20000x12, .f32⟩
  | .local _ .vmem, ⟨2, _⟩ => ⟨S12x64, .f32⟩
  | .local _ .vmem, ⟨3, _⟩ => ⟨S1x20000x64, .f32⟩
  | .local _ .vmem, ⟨4, _⟩ => ⟨S1x20000x64, .f32⟩
  | .local _ .vmem, ⟨5, _⟩ => ⟨S1x20000x64, .f32⟩
  | .local _ .vmem, ⟨6, _⟩ => ⟨S1x20000x64, .f32⟩
  | .local _ .vmem, ⟨7, _⟩ => ⟨S64, .f32⟩
  | .local _ .vmem, ⟨8, _⟩ => ⟨S64x12, .f32⟩
  | .local _ .vmem, ⟨9, _⟩ => ⟨S12, .f32⟩
  | .local _ .vmem, ⟨10, _⟩ => ⟨S1x20000x12, .f32⟩
  | .local _ .vmem, ⟨11, _⟩ => ⟨S1x20000x12, .f32⟩
  | _, _ => ⟨S8x12x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x20000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x12 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S12 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x20000x12 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S8x12x20000_S8x20000x12_0_2_1 : S8x12x20000.Transposes [0, 2, 1] S8x20000x12
  inb_S1x20000x12_S1x20000x12_0_0_0 : ∀ a, (![0, 0, 0] : Fin 3 → Nat) a + S1x20000x12.size a ≤ S1x20000x12.size a
  h_S1x20000x12 : 0 < S1x20000x12.numel
  shapeCasts_S1x20000x12_S20000x12 : S1x20000x12.ShapeCasts S20000x12
  bitsLt_bf16_f32 : FTy.bits .bf16 < FTy.bits .f32
  inb_S12x64_S12x64_0_0 : ∀ a, (![0, 0] : Fin 2 → Nat) a + S12x64.size a ≤ S12x64.size a
  h_S12x64 : 0 < S12x64.numel
  inb_S1x20000x64_S1x20000x64_0_0_0 : ∀ a, (![0, 0, 0] : Fin 3 → Nat) a + S1x20000x64.size a ≤ S1x20000x64.size a
  h_S1x20000x64 : 0 < S1x20000x64.numel
  shapeCasts_S1x20000x64_S20000x64 : S1x20000x64.ShapeCasts S20000x64
  shapeCasts_S20000x64_S1x20000x64 : S20000x64.ShapeCasts S1x20000x64
  bcast_S_S320000 : S_.BroadcastsInDim S320000 (![] : Fin 0 → Fin S320000.rank)
  bcast_S320000_S320000x1_0 : S320000.BroadcastsInDim S320000x1 (![0] : Fin 1 → Fin S320000x1.rank)
  bcast_S320000_S1x320000x1_1 : S320000.BroadcastsInDim S1x320000x1 (![1] : Fin 1 → Fin S1x320000x1.rank)
  bcast_S1x320000x1_S8x320000x64_0_1_2 : S1x320000x1.BroadcastsInDim S8x320000x64 (![0, 1, 2] : Fin 3 → Fin S8x320000x64.rank)
  bcast_S_S8x20000x64 : S_.BroadcastsInDim S8x20000x64 (![] : Fin 0 → Fin S8x20000x64.rank)
  inb_S64_S64_0 : ∀ a, (![0] : Fin 1 → Nat) a + S64.size a ≤ S64.size a
  h_S64 : 0 < S64.numel
  shapeCasts_S64_S1x64 : S64.ShapeCasts S1x64
  broadcasts_S1x64_S20000x64 : S1x64.Broadcasts S20000x64
  inb_S64x12_S64x12_0_0 : ∀ a, (![0, 0] : Fin 2 → Nat) a + S64x12.size a ≤ S64x12.size a
  h_S64x12 : 0 < S64x12.numel
  inb_S12_S12_0 : ∀ a, (![0] : Fin 1 → Nat) a + S12.size a ≤ S12.size a
  h_S12 : 0 < S12.numel
  shapeCasts_S12_S1x12 : S12.ShapeCasts S1x12
  broadcasts_S1x12_S20000x12 : S1x12.Broadcasts S20000x12
  shapeCasts_S20000x12_S1x20000x12 : S20000x12.ShapeCasts S1x20000x12
  dot_S20000x12_S12x64_S20000x64_1_0_0_1_n_n_wf : DotDims.WF S20000x12 S12x64 S20000x64 [1] [0] [0] [1] [] []
  gather_S8x20000x64_S320000x1_S8x320000x64_02_1_n_n_1_1_8164_wf : GatherDims.WF S8x20000x64 S320000x1 S8x320000x64 [0, 2] [1] [] [1] [] 1 ![8, 1, 64]
  scatter_S8x20000x64_S320000x1_S8x320000x64_02_1_1_1_wf : ScatterDims.WF S8x20000x64 S320000x1 S8x320000x64 [0, 2] [1] [1] 1
  dot_S20000x64_S64x12_S20000x12_1_0_0_1_n_n_wf : DotDims.WF S20000x64 S64x12 S20000x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x20000x12.size a ≤ S8x20000x12.size a
  hwx0_0 : ∀ i : grid0.Coords, EltTy.bits .f32 = 32 ∨ (Rect.block (s := S8x20000x12) S1x20000x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x64.size a ≤ S12x64.size a
  hwx0_1 : ∀ i : grid0.Coords, EltTy.bits .f32 = 32 ∨ (Rect.block (s := S12x64) S12x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x20000x64.size a ≤ S8x20000x64.size a
  hwx0_2 : ∀ i : grid0.Coords, EltTy.bits .f32 = 32 ∨ (Rect.block (s := S8x20000x64) S1x20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x20000x64.size a ≤ S8x20000x64.size a
  hwx1_0 : ∀ i : grid1.Coords, EltTy.bits .f32 = 32 ∨ (Rect.block (s := S8x20000x64) S1x20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x12.size a ≤ S64x12.size a
  hwx1_2 : ∀ i : grid1.Coords, EltTy.bits .f32 = 32 ∨ (Rect.block (s := S64x12) S64x12.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S12.size a ≤ S12.size a
  hwx1_3 : ∀ i : grid1.Coords, EltTy.bits .f32 = 32 ∨ (Rect.block (s := S12) S12.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x20000x12.size a ≤ S8x20000x12.size a
  hwx1_4 : ∀ i : grid1.Coords, EltTy.bits .f32 = 32 ∨ (Rect.block (s := S8x20000x12) S1x20000x12.size (cc1_transform_4 i) (hinb1_4 i)).WholeWords (EltTy.packing .f32)

variable [Facts₀]

def dot_S20000x12_S12x64_S20000x64_1_0_0_1_n_n : DotDims S20000x12 S12x64 S20000x64 where
  lhsContracting := [1]
  rhsContracting := [0]
  lhsNonContracting := [0]
  rhsNonContracting := [1]
  lhsBatch := []
  rhsBatch := []
  wf := dot_S20000x12_S12x64_S20000x64_1_0_0_1_n_n_wf
def gather_S8x20000x64_S320000x1_S8x320000x64_02_1_n_n_1_1_8164 : GatherDims S8x20000x64 S320000x1 S8x320000x64 where
  offsetDims := [0, 2]
  collapsedSliceDims := [1]
  operandBatchingDims := []
  startIndicesBatchingDims := []
  startIndexMap := [1]
  indexVectorDim := 1
  sliceSizes := ![8, 1, 64]
  wf := gather_S8x20000x64_S320000x1_S8x320000x64_02_1_n_n_1_1_8164_wf
def scatter_S8x20000x64_S320000x1_S8x320000x64_02_1_1_1 : ScatterDims S8x20000x64 S320000x1 S8x320000x64 where
  updateWindowDims := [0, 2]
  insertedWindowDims := [1]
  scatterDimsToOperandDims := [1]
  indexVectorDim := 1
  wf := scatter_S8x20000x64_S320000x1_S8x320000x64_02_1_1_1_wf
def dot_S20000x64_S64x12_S20000x12_1_0_0_1_n_n : DotDims S20000x64 S64x12 S20000x12 where
  lhsContracting := [1]
  rhsContracting := [0]
  lhsNonContracting := [0]
  rhsNonContracting := [1]
  lhsBatch := []
  rhsBatch := []
  wf := dot_S20000x64_S64x12_S20000x12_1_0_0_1_n_n_wf

abbrev win0_0 : Pipeline.Window sig grid0 :=
  Pipeline.Window.ofSpec (Memref.whole main_v0) S1x20000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S12x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S1x20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x12.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S12.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x20000x12.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x12x20000 : Shape := ⟨3, ![8, 12, 20000]⟩
abbrev S320000 : Shape := ⟨1, ![320000]⟩
abbrev S12x64 : Shape := ⟨2, ![12, 64]⟩
abbrev S64 : Shape := ⟨1, ![64]⟩
abbrev S64x12 : Shape := ⟨2, ![64, 12]⟩
abbrev S12 : Shape := ⟨1, ![12]⟩
abbrev S8x20000x12 : Shape := ⟨3, ![8, 20000, 12]⟩
abbrev S8x20000x64 : Shape := ⟨3, ![8, 20000, 64]⟩
abbrev S_ : Shape := ⟨0, ![]⟩
abbrev S320000x1 : Shape := ⟨2, ![320000, 1]⟩
abbrev S8x320000x64 : Shape := ⟨3, ![8, 320000, 64]⟩
abbrev S1x320000x1 : Shape := ⟨3, ![1, 320000, 1]⟩
abbrev S1x1x64 : Shape := ⟨3, ![1, 1, 64]⟩
abbrev S1x1x12 : Shape := ⟨3, ![1, 1, 12]⟩

abbrev nBuf : Space → Nat
  | .hbm => 46
  | .vmem => 0
  | .smem => 0
  | _ => 0

abbrev bufTy : (tb : Table) → Fin (tcTables nBuf tb) → BufTy
  | .hbm, ⟨0, _⟩ => ⟨S8x12x20000, .f32⟩
  | .hbm, ⟨1, _⟩ => ⟨S320000, .f32⟩
  | .hbm, ⟨2, _⟩ => ⟨S12x64, .f32⟩
  | .hbm, ⟨3, _⟩ => ⟨S64, .f32⟩
  | .hbm, ⟨4, _⟩ => ⟨S64x12, .f32⟩
  | .hbm, ⟨5, _⟩ => ⟨S12, .f32⟩
  | .hbm, ⟨6, _⟩ => ⟨S320000, .i32⟩
  | .hbm, ⟨7, _⟩ => ⟨S320000, .i32⟩
  | .hbm, ⟨8, _⟩ => ⟨S8x20000x12, .f32⟩
  | .hbm, ⟨9, _⟩ => ⟨S8x20000x64, .f32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S8x320000x64, .f32⟩
  | .hbm, ⟨19, _⟩ => ⟨S1x320000x1, .f32⟩
  | .hbm, ⟨20, _⟩ => ⟨S8x320000x64, .f32⟩
  | .hbm, ⟨21, _⟩ => ⟨S8x320000x64, .f32⟩
  | .hbm, ⟨22, _⟩ => ⟨S_, .f32⟩
  | .hbm, ⟨23, _⟩ => ⟨S8x20000x64, .f32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S8x20000x64, .f32⟩
  | .hbm, ⟨33, _⟩ => ⟨S1x1x64, .f32⟩
  | .hbm, ⟨34, _⟩ => ⟨S8x20000x64, .f32⟩
  | .hbm, ⟨35, _⟩ => ⟨S8x20000x64, .f32⟩
  | .hbm, ⟨36, _⟩ => ⟨S_, .f32⟩
  | .hbm, ⟨37, _⟩ => ⟨S8x20000x64, .f32⟩
  | .hbm, ⟨38, _⟩ => ⟨S8x20000x64, .f32⟩
  | .hbm, ⟨39, _⟩ => ⟨S8x20000x12, .f32⟩
  | .hbm, ⟨40, _⟩ => ⟨S1x1x12, .f32⟩
  | .hbm, ⟨41, _⟩ => ⟨S8x20000x12, .f32⟩
  | .hbm, ⟨42, _⟩ => ⟨S8x20000x12, .f32⟩
  | .hbm, ⟨43, _⟩ => ⟨S_, .f32⟩
  | .hbm, ⟨44, _⟩ => ⟨S8x20000x12, .f32⟩
  | .hbm, ⟨45, _⟩ => ⟨S8x20000x12, .f32⟩
  | _, _ => ⟨S8x12x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  transposes_S8x12x20000_S8x20000x12_0_2_1 : S8x12x20000.Transposes [0, 2, 1] S8x20000x12
  bcast_S_S320000 : S_.BroadcastsInDim S320000 (![] : Fin 0 → Fin S320000.rank)
  bcast_S320000_S320000x1_0 : S320000.BroadcastsInDim S320000x1 (![0] : Fin 1 → Fin S320000x1.rank)
  bcast_S320000_S1x320000x1_1 : S320000.BroadcastsInDim S1x320000x1 (![1] : Fin 1 → Fin S1x320000x1.rank)
  bcast_S1x320000x1_S8x320000x64_0_1_2 : S1x320000x1.BroadcastsInDim S8x320000x64 (![0, 1, 2] : Fin 3 → Fin S8x320000x64.rank)
  bcast_S_S8x20000x64 : S_.BroadcastsInDim S8x20000x64 (![] : Fin 0 → Fin S8x20000x64.rank)
  bcast_S64_S1x1x64_2 : S64.BroadcastsInDim S1x1x64 (![2] : Fin 1 → Fin S1x1x64.rank)
  bcast_S1x1x64_S8x20000x64_0_1_2 : S1x1x64.BroadcastsInDim S8x20000x64 (![0, 1, 2] : Fin 3 → Fin S8x20000x64.rank)
  bcast_S12_S1x1x12_2 : S12.BroadcastsInDim S1x1x12 (![2] : Fin 1 → Fin S1x1x12.rank)
  bcast_S1x1x12_S8x20000x12_0_1_2 : S1x1x12.BroadcastsInDim S8x20000x12 (![0, 1, 2] : Fin 3 → Fin S8x20000x12.rank)
  bcast_S_S8x20000x12 : S_.BroadcastsInDim S8x20000x12 (![] : Fin 0 → Fin S8x20000x12.rank)
  dot_S8x20000x12_S12x64_S8x20000x64_2_0_01_1_n_n_wf : DotDims.WF S8x20000x12 S12x64 S8x20000x64 [2] [0] [0, 1] [1] [] []
  gather_S8x20000x64_S320000x1_S8x320000x64_02_1_n_n_1_1_8164_wf : GatherDims.WF S8x20000x64 S320000x1 S8x320000x64 [0, 2] [1] [] [1] [] 1 ![8, 1, 64]
  scatter_S8x20000x64_S320000x1_S8x320000x64_02_1_1_1_wf : ScatterDims.WF S8x20000x64 S320000x1 S8x320000x64 [0, 2] [1] [1] 1
  dot_S8x20000x64_S64x12_S8x20000x12_2_0_01_1_n_n_wf : DotDims.WF S8x20000x64 S64x12 S8x20000x12 [2] [0] [0, 1] [1] [] []

variable [Facts₀]

def dot_S8x20000x12_S12x64_S8x20000x64_2_0_01_1_n_n : DotDims S8x20000x12 S12x64 S8x20000x64 where
  lhsContracting := [2]
  rhsContracting := [0]
  lhsNonContracting := [0, 1]
  rhsNonContracting := [1]
  lhsBatch := []
  rhsBatch := []
  wf := dot_S8x20000x12_S12x64_S8x20000x64_2_0_01_1_n_n_wf
def gather_S8x20000x64_S320000x1_S8x320000x64_02_1_n_n_1_1_8164 : GatherDims S8x20000x64 S320000x1 S8x320000x64 where
  offsetDims := [0, 2]
  collapsedSliceDims := [1]
  operandBatchingDims := []
  startIndicesBatchingDims := []
  startIndexMap := [1]
  indexVectorDim := 1
  sliceSizes := ![8, 1, 64]
  wf := gather_S8x20000x64_S320000x1_S8x320000x64_02_1_n_n_1_1_8164_wf
def scatter_S8x20000x64_S320000x1_S8x320000x64_02_1_1_1 : ScatterDims S8x20000x64 S320000x1 S8x320000x64 where
  updateWindowDims := [0, 2]
  insertedWindowDims := [1]
  scatterDimsToOperandDims := [1]
  indexVectorDim := 1
  wf := scatter_S8x20000x64_S320000x1_S8x320000x64_02_1_1_1_wf
def dot_S8x20000x64_S64x12_S8x20000x12_2_0_01_1_n_n : DotDims S8x20000x64 S64x12 S8x20000x12 where
  lhsContracting := [2]
  rhsContracting := [0]
  lhsNonContracting := [0, 1]
  rhsNonContracting := [1]
  lhsBatch := []
  rhsBatch := []
  wf := dot_S8x20000x64_S64x12_S8x20000x12_2_0_01_1_n_n_wf

class Facts : Prop extends Facts₀ where

variable [Facts]
-- ==== Proof.Spec.lean ====
/-
  What the two dense stages compute, index by index, over the extended reals.

  `convFeatures`: a batch of node-feature matrices (8 batches, 20000 nodes, 12 time features) times the
  12 × 64 convolution weights: entry (b, n, f) is  Σ_k x[b, n, k] · w[k, f].

  `denseOutput`: the aggregated messages (8 × 20000 × 64) plus the convolution bias, floored at zero,
  times the 64 × 12 projection weights, plus the projection bias, floored at zero again: entry
  (b, n, t) is  max(Σ_k max(agg[b, n, k] + bg[k], 0) · wd[k, t] + bd[t], 0).

  The floor is written with the same zero word both programs spell, so it is never evaluated.
-/
import Idealize.ShloMosaic.PureOps.Ideal
import Idealize.ShloMosaic.Lib.ValueIdx

noncomputable section

namespace Cert.GraphConv

open Idealize.ShloMosaic Idealize.ShloMosaic.ValueIdx

/-- The zero both programs floor at. -/
abbrev floor0 : EReal := Ideal.ofBits .f32 0x00000000#32

/-- Node features times the convolution weights. -/
def convFeatures (x : (⟨3, ![8, 20000, 12]⟩ : Shape).Idx → EReal) (w : (⟨2, ![12, 64]⟩ : Shape).Idx → EReal) :
    (⟨3, ![8, 20000, 64]⟩ : Shape).Idx → EReal :=
  fun i => ∑ k : Fin 12,
    x (ix3 (n0 := 8) (n1 := 20000) ⟨(i 0).val, (i 0).isLt⟩ ⟨(i 1).val, (i 1).isLt⟩ k)
      * w (ix2 (n1 := 64) k ⟨(i 2).val, (i 2).isLt⟩)

/-- Bias, floor, projection, bias, floor. -/
def denseOutput (agg : (⟨3, ![8, 20000, 64]⟩ : Shape).Idx → EReal) (bg : (⟨1, ![64]⟩ : Shape).Idx → EReal)
    (wd : (⟨2, ![64, 12]⟩ : Shape).Idx → EReal) (bd : (⟨1, ![12]⟩ : Shape).Idx → EReal) :
    (⟨3, ![8, 20000, 12]⟩ : Shape).Idx → EReal :=
  fun i => max
    ((∑ k : Fin 64,
        max (agg (ix3 (n0 := 8) (n1 := 20000) ⟨(i 0).val, (i 0).isLt⟩ ⟨(i 1).val, (i 1).isLt⟩ k) + bg (ix1 k)) floor0
          * wd (ix2 (n1 := 12) k ⟨(i 2).val, (i 2).isLt⟩))
      + bd (ix1 (n := 12) ⟨(i 2).val, (i 2).isLt⟩))
    floor0

end Cert.GraphConv

end
-- ==== Proof.RefSide.lean ====
/-
  The reference, as the same three stages.  Its first contraction is `convFeatures` of the transposed
  input and the convolution weights.  Between the two dense stages both programs run the SAME host
  operations — wrap a negative edge index around, gather the source node's hidden row for every
  edge, scale it by the edge weight, add the scaled rows into the target node's row of a zero
  array — and that stretch is carried here as ONE function, `aggregate`, of the hidden features, the
  edge weights and the two index lists; it is never opened.  The reference's tail (bias, floor,
  contraction, bias, floor) is `denseOutput` of the aggregated messages, index by index.
-/
import proofs.«174050_j77309411573_2_alg».proof.Proof.Gen.ReferenceIdeal.Read
import proofs.«174050_j77309411573_2_alg».proof.Proof.Spec

noncomputable section

namespace Cert.ReferenceIdeal.RefValue

open Cert.ReferenceIdeal Cert.ReferenceIdeal.Gen Cert.ReferenceIdeal.Read Cert.GraphConv
open Idealize.ShloMosaic Idealize.ShloMosaic.ValueIdx Idealize.ShloMosaic.TcCoe

/-- The message-passing stretch: every edge carries its source node's hidden row, scaled by the
    edge's weight, into its target node's row of an array that starts at zero. -/
def aggregate {F : FTy → Type} [FloatOps F] (h : (⟨S8x20000x64, .f32⟩ : BufTy).Contents (Elt F))
    (ew : (⟨S320000, .f32⟩ : BufTy).Contents (Elt F)) (src dst : (⟨S320000, .i32⟩ : BufTy).Contents (Elt F)) :
    (⟨S8x20000x64, .f32⟩ : BufTy).Contents (Elt F) :=
  Host.scatterAdd scatter_S8x20000x64_S320000x1_S8x320000x64_02_1_1_1 (val_main_v12 (F := F)) (val_main_v18 (F := F) dst)
    (mulf (Host.gather gather_S8x20000x64_S320000x1_S8x320000x64_02_1_n_n_1_1_8164 h (val_main_v7 (F := F) src)) (val_main_v10 (F := F) ew))

/-- The reference's aggregated messages are `aggregate` of its hidden features. -/
theorem messages_eq {F : FTy → Type} [FloatOps F] (x0 : (⟨S8x12x20000, .f32⟩ : BufTy).Contents (Elt F))
    (x1 : (⟨S320000, .f32⟩ : BufTy).Contents (Elt F)) (x2 : (⟨S12x64, .f32⟩ : BufTy).Contents (Elt F))
    (x6 x7 : (⟨S320000, .i32⟩ : BufTy).Contents (Elt F)) :
    val_main_v19 (F := F) x0 x1 x2 x6 x7 = aggregate (val_main_v1 (F := F) x0 x2) x1 x6 x7 := rfl

/-- The reference's first contraction, index by index: node features times the convolution weights. -/
theorem hidden_eq (x0 : (⟨S8x12x20000, .f32⟩ : BufTy).Contents (Elt Ideal)) (x2 : (⟨S12x64, .f32⟩ : BufTy).Contents (Elt Ideal)) :
    val_main_v1 (F := Ideal) x0 x2 = convFeatures (val_main_v0 (F := Ideal) x0) x2 := by
  funext i
  rw [val_main_v1_apply]
  unfold convFeatures
  refine Finset.sum_congr rfl fun k _ => ?_
  have e1 : lidx_main_v1 i k = ix3 (n0 := 8) (n1 := 20000) ⟨(i 0).val, (i 0).isLt⟩ ⟨(i 1).val, (i 1).isLt⟩ k :=
    funext fun a => Fin.ext (by match a with | ⟨0, _⟩ => rfl | ⟨1, _⟩ => rfl | ⟨2, _⟩ => rfl)
  have e2 : ridx_main_v1 i k = ix2 (n1 := 64) k ⟨(i 2).val, (i 2).isLt⟩ :=
    funext fun a => Fin.ext (by match a with | ⟨0, _⟩ => rfl | ⟨1, _⟩ => rfl)
  rw [e1, e2]

/-- The reference's tail, index by index: bias, floor, contraction with the projection weights, bias,
    floor, of whatever the aggregated messages are. -/
theorem output_eq (x0 : (⟨S8x12x20000, .f32⟩ : BufTy).Contents (Elt Ideal)) (x1 : (⟨S320000, .f32⟩ : BufTy).Contents (Elt Ideal))
    (x2 : (⟨S12x64, .f32⟩ : BufTy).Contents (Elt Ideal)) (x3 : (⟨S64, .f32⟩ : BufTy).Contents (Elt Ideal))
    (x4 : (⟨S64x12, .f32⟩ : BufTy).Contents (Elt Ideal)) (x5 : (⟨S12, .f32⟩ : BufTy).Contents (Elt Ideal))
    (x6 x7 : (⟨S320000, .i32⟩ : BufTy).Contents (Elt Ideal)) :
    val_main_v28 (F := Ideal) x0 x1 x2 x3 x4 x5 x6 x7
      = denseOutput (val_main_v19 (F := Ideal) x0 x1 x2 x6 x7) x3 x4 x5 := by
  funext i
  rw [val_main_v28_apply, val_main_v27_apply, val_main_v24_apply, val_main_v26_apply, val_main_v25_apply,
    val_main_call1_v0_apply, val_main_call1_cst_apply]
  unfold denseOutput
  simp only [Ideal.maximumf_def, Ideal.addf_def, Ideal.ofBits_def]
  have e4 : idx_main_v25 (idx_main_v26 i) = ix1 (n := 12) ⟨(i 2).val, (i 2).isLt⟩ :=
    funext fun a => Fin.ext (by match a with | ⟨0, _⟩ => rfl)
  rw [e4]
  refine congrArg₂ max (congrArg₂ (· + ·) (Finset.sum_congr rfl fun k _ => ?_) rfl) rfl
  rw [val_main_v23_apply, val_main_v22_apply, val_main_v21_apply, val_main_v20_apply, val_main_call0_v0_apply,
    val_main_call0_cst_apply]
  simp only [Ideal.maximumf_def, Ideal.addf_def, Ideal.ofBits_def]
  have e3 : idx_main_v20 (idx_main_v21 (lidx_main_v24 i k)) = ix1 k :=
    funext fun a => Fin.ext (by match a with | ⟨0, _⟩ => rfl)
  have e1 : lidx_main_v24 i k = ix3 (n0 := 8) (n1 := 20000) ⟨(i 0).val, (i 0).isLt⟩ ⟨(i 1).val, (i 1).isLt⟩ k :=
    funext fun a => Fin.ext (by match a with | ⟨0, _⟩ => rfl | ⟨1, _⟩ => rfl | ⟨2, _⟩ => rfl)
  have e2 : ridx_main_v24 i k = ix2 (n1 := 12) k ⟨(i 2).val, (i 2).isLt⟩ :=
    funext fun a => Fin.ext (by match a with | ⟨0, _⟩ => rfl | ⟨1, _⟩ => rfl)
  rw [e3, e1, e2]

/-- THE WHOLE COMPUTATION as one function of the eight argument arrays — input, edge weights,
    convolution weights and bias, projection weights and bias, source and target index lists:
    transpose, node features times weights, pass messages along the edges, bias-floor-project-bias-floor. -/
def network (x0 : (⟨S8x12x20000, .f32⟩ : BufTy).Contents (Elt Ideal)) (x1 : (⟨S320000, .f32⟩ : BufTy).Contents (Elt Ideal))
    (x2 : (⟨S12x64, .f32⟩ : BufTy).Contents (Elt Ideal)) (x3 : (⟨S64, .f32⟩ : BufTy).Contents (Elt Ideal))
    (x4 : (⟨S64x12, .f32⟩ : BufTy).Contents (Elt Ideal)) (x5 : (⟨S12, .f32⟩ : BufTy).Contents (Elt Ideal))
    (x6 x7 : (⟨S320000, .i32⟩ : BufTy).Contents (Elt Ideal)) :
    (⟨S8x20000x12, .f32⟩ : BufTy).Contents (Elt Ideal) :=
  denseOutput (aggregate (convFeatures (val_main_v0 (F := Ideal) x0) x2) x1 x6 x7) x3 x4 x5

/-- THE REFERENCE'S RESULT is `network` of its arguments. -/
theorem result_eq (x0 : (⟨S8x12x20000, .f32⟩ : BufTy).Contents (Elt Ideal)) (x1 : (⟨S320000, .f32⟩ : BufTy).Contents (Elt Ideal))
    (x2 : (⟨S12x64, .f32⟩ : BufTy).Contents (Elt Ideal)) (x3 : (⟨S64, .f32⟩ : BufTy).Contents (Elt Ideal))
    (x4 : (⟨S64x12, .f32⟩ : BufTy).Contents (Elt Ideal)) (x5 : (⟨S12, .f32⟩ : BufTy).Contents (Elt Ideal))
    (x6 x7 : (⟨S320000, .i32⟩ : BufTy).Contents (Elt Ideal)) :
    val_main_v28 (F := Ideal) x0 x1 x2 x3 x4 x5 x6 x7 = network x0 x1 x2 x3 x4 x5 x6 x7 := by
  rw [output_eq, messages_eq, hidden_eq]
  rfl

end Cert.ReferenceIdeal.RefValue

end
-- ==== Proof.WholeRun.lean ====
/-
  The idealized kernel's whole run, with every buffer named at the end.  The program is four
  segments in a row: the transpose on the host, the first kernel over its eight grid points, the
  gather / scale / scatter-add stretch on the host, the second kernel over its eight grid points.
  The contents of the TensorCore's buffers at each boundary are a fold from the launch memory; the
  last boundary's contents are `W4`.  The statement here: every weakly fair execution terminates
  without a fault, and in the final state EVERY unscoped buffer holds `W4`'s contents, the result
  buffer included (the frame claim keeps only the argument buffers of this).
-/
import proofs.«174050_j77309411573_2_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is read off a final state on core `c`: each unscoped buffer at the last boundary's contents. -/
abbrev EndsAt (c : Dev nD) (s : MemSt nD τ sig (Elt F)) : Prop :=
  ∀ b ∈ Pipeline.ucRefs τ sig, s.mem (((c : Thread nD τ)).1, b) = W4 m ρ c b

set_option backward.isDefEq.respectTransparency.types false in
/-- From any memory with zero counters every weakly fair execution of @main terminates, nothing
    faulting, with every unscoped buffer of every core at `W4`. -/
theorem run : θ_run defs (onTc (τ := τ) (main (F := F))) ⟨m, fun _ => 0, ρ⟩
    (fun r => ∀ c : Dev nD, EndsAt m ρ c r.2) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no ghost resource rides per core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      -- per core: the launch memory is the first boundary's contents; the register and the empty debt ride along
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := EndsAt m ρ)
    (hfin := fun c s' => by
      -- the buffers held at `W4`, beside the final state's interpretation, say what its memory holds
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.WholeRun

end
-- ==== Proof.GcnBody.lean ====
/-
  The first kernel's arithmetic, read at an index.  Each grid point holds one batch: a block of
  20000 node rows with 12 time features each.  The body multiplies that block by the 12 × 64
  convolution weights, accumulating into zero; rounding the operands to bf16 changes nothing over
  the extended reals.  So entry (n, f) of the block it stores is  Σ_k x[n, k] · w[k, f],  a plain
  sum of twelve products.
-/
import proofs.«174050_j77309411573_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.GcnBody

open Idealize.ShloMosaic Idealize.ShloMosaic.ValueIdx Cert.KernelIdeal Cert.KernelIdeal.Gen

/-- Where the product's two operands are read, coordinate by coordinate: the row index from the
    output's row, the column index from the output's column, the shared one from the summation index. -/
theorem lhs_row (j : S20000x64.Idx) (q : dot_S20000x12_S12x64_S20000x64_1_0_0_1_n_n.contr.Idx) :
    (dot_S20000x12_S12x64_S20000x64_1_0_0_1_n_n.lhsIdx j q 0).val = (j 0).val := by
  unfold DotDims.lhsIdx
  rw [dif_neg (show ¬(0 : Fin S20000x12.rank) ∈ dot_S20000x12_S12x64_S20000x64_1_0_0_1_n_n.lhsBatch by decide), dif_pos (show (0 : Fin S20000x12.rank) ∈ dot_S20000x12_S12x64_S20000x64_1_0_0_1_n_n.lhsNonContracting by decide)]
  rfl
theorem lhs_shared (j : S20000x64.Idx) (q : dot_S20000x12_S12x64_S20000x64_1_0_0_1_n_n.contr.Idx) :
    (dot_S20000x12_S12x64_S20000x64_1_0_0_1_n_n.lhsIdx j q 1).val = (q ⟨0, by decide⟩).val :=
  dot_S20000x12_S12x64_S20000x64_1_0_0_1_n_n.lhsIdx_val_of_single rfl j q
theorem rhs_shared (j : S20000x64.Idx) (q : dot_S20000x12_S12x64_S20000x64_1_0_0_1_n_n.contr.Idx) :
    (dot_S20000x12_S12x64_S20000x64_1_0_0_1_n_n.rhsIdx j q 0).val = (q ⟨0, by decide⟩).val :=
  dot_S20000x12_S12x64_S20000x64_1_0_0_1_n_n.rhsIdx_val_of_single rfl j q
theorem rhs_col (j : S20000x64.Idx) (q : dot_S20000x12_S12x64_S20000x64_1_0_0_1_n_n.contr.Idx) :
    (dot_S20000x12_S12x64_S20000x64_1_0_0_1_n_n.rhsIdx j q 1).val = (j 1).val := by
  unfold DotDims.rhsIdx
  rw [dif_neg (show ¬(1 : Fin S12x64.rank) ∈ dot_S20000x12_S12x64_S20000x64_1_0_0_1_n_n.rhsBatch by decide), dif_pos (show (1 : Fin S12x64.rank) ∈ dot_S20000x12_S12x64_S20000x64_1_0_0_1_n_n.rhsNonContracting by decide)]
  rfl

/-- Rows times weights into a zero accumulator, at row `n` and column `f`: the sum over the twelve
    shared coordinates of the row's entry times the column's. -/
theorem rows_times_weights (l : FVec Ideal S20000x12 .bf16) (r : FVec Ideal S12x64 .bf16) (n : Fin 20000) (f : Fin 64) :
    matmul dot_S20000x12_S12x64_S20000x64_1_0_0_1_n_n none l r (constant (F := Ideal) S20000x64 .f32 0x00000000#32) (ix2 n f)
      = ∑ k : Fin 12, l (ix2 n k) * r (ix2 k f) := by
  simp only [matmul]
  rw [Ideal.matmul_constant_zero_apply, ← Equiv.sum_comp (contrEquiv1 dot_S20000x12_S12x64_S20000x64_1_0_0_1_n_n 12 rfl rfl).symm]
  refine Finset.sum_congr rfl fun k _ => ?_
  have hk := contrEquiv1_symm_val dot_S20000x12_S12x64_S20000x64_1_0_0_1_n_n 12 rfl rfl k
  have el : dot_S20000x12_S12x64_S20000x64_1_0_0_1_n_n.lhsIdx (ix2 n f) ((contrEquiv1 dot_S20000x12_S12x64_S20000x64_1_0_0_1_n_n 12 rfl rfl).symm k) = ix2 n k :=
    funext fun a => Fin.ext (by
      match a with
      | ⟨0, _⟩ => exact lhs_row _ _
      | ⟨1, _⟩ => exact (lhs_shared _ _).trans hk)
  have er : dot_S20000x12_S12x64_S20000x64_1_0_0_1_n_n.rhsIdx (ix2 n f) ((contrEquiv1 dot_S20000x12_S12x64_S20000x64_1_0_0_1_n_n 12 rfl rfl).symm k) = ix2 k f :=
    funext fun a => Fin.ext (by
      match a with
      | ⟨0, _⟩ => exact (rhs_shared _ _).trans hk
      | ⟨1, _⟩ => exact rhs_col _ _)
  rw [el, er]

/-- The block the body stores, at node `n` and hidden feature `f` (the leading unit coordinate `u`
    is the squeezed batch axis): the twelve products of the node's features with the weights' column. -/
theorem stored_apply (x : Vec Ideal S1x20000x12 .f32) (w : Vec Ideal S12x64 .f32) (u : Fin 1) (n : Fin 20000) (f : Fin 64) :
    k0_pay1 x w (ix3 u n f) = ∑ k : Fin 12, x (ix3 (0 : Fin 1) n k) * w (ix2 k f) := by
  unfold k0_pay1
  rw [shapeCast_ab_1ab_apply, rows_times_weights]
  refine Finset.sum_congr rfl fun k _ => ?_
  show shapeCast S20000x12 x shapeCasts_S1x20000x12_S20000x12 (ix2 n k) * w (ix2 k f) = _
  rw [shapeCast_1ab_ab_apply]

end Cert.KernelIdeal.GcnBody

end
-- ==== Proof.GcnArray.lean ====
/-
  From blocks to the whole array, for the first kernel.  Its grid has eight points, one per batch:
  point `t` reads batch `t` of the transposed node features (a 1 × 20000 × 12 block) and the whole
  weight matrix, and writes back batch `t` of the hidden features (a 1 × 20000 × 64 block).  What a
  point writes back is the restriction to its block of ONE whole-array function, `convFeatures`, of the
  arrays as the kernel finds them; the eight blocks tile the output, so the output array ends equal
  to that function.
-/
import proofs.«174050_j77309411573_2_alg».proof.Proof.Gen.KernelIdeal.Frame
import proofs.«174050_j77309411573_2_alg».proof.Proof.GcnBody
import proofs.«174050_j77309411573_2_alg».proof.Proof.Spec

set_option maxRecDepth 16384

noncomputable section

namespace Cert.KernelIdeal.GcnArray

open Idealize.ShloMosaic Idealize.ShloMosaic.TcCoe Idealize.ShloMosaic.ValueIdx Idealize.SL.Sem
open Idealize.ShloMosaic.Pipeline (Dat)
open Cert.KernelIdeal Cert.KernelIdeal.Gen Cert.GraphConv

variable (V : (c : Dev nD) → (b : Ref sig .tc) → Buf (Elt Ideal) ((c : Thread nD τ).loc b))

theorem zero3 : (![0, 0, 0] : Fin 3 → Nat) = fun _ => 0 := funext fun a => by fin_cases a <;> rfl
theorem zero2 : (![0, 0] : Fin 2 → Nat) = fun _ => 0 := funext fun a => by fin_cases a <;> rfl

/-- The block each window takes at grid point `t`: the feature and the output windows move along the
    batch axis with `t`; the weight window stays. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- What point `t` writes back is block `t` of `convFeatures` of the arrays the kernel is entered with. -/
theorem flushed_eq (c : Dev nD) (t : Fin cfg0.N) :
    (dat0 V c).flushed 2 t = ((cfg0.win 2).blk t).view.read (Elt Ideal) (convFeatures (V c main_v0) (V c main_arg2)) := by
  show (cfg0.win 2).cut (grid0.coords t) ((dat0 V c).after 2 t) = _
  rw [after0_2]
  unfold out0_2
  rw [View.canon_unit_zero zero3]
  simp only [View.ld_unit_zero (S := S1x20000x12) zero3, View.ld_unit_zero (S := S12x64) zero2]
  obtain ⟨a0, a1, a2, b0, b1, o0, o1, o2⟩ := block_indices t
  funext j
  obtain ⟨u, n, f, rfl⟩ : ∃ (u : Fin 1) (n : Fin 20000) (f : Fin 64), j = ix3 u n f := ⟨j 0, j 1, j 2, eq_ix3 j⟩
  show k0_pay1 (iblk0 V c 0 t) (iblk0 V c 1 t) (ix3 u n f)
    = convFeatures (V c main_v0) (V c main_arg2) (((cfg0.win 2).blk t).view.emb (ix3 u n f))
  refine (GcnBody.stored_apply (iblk0 V c 0 t) (iblk0 V c 1 t) u n f).trans ?_
  unfold convFeatures
  refine Finset.sum_congr rfl fun k _ => ?_
  -- both factors are reads of the entry arrays: the feature block at (batch t, node n, feature k),
  -- the weights at (k, f); `E` stands for the array index of the output entry being written
  have factors : ∀ (X : S8x20000x12.Idx → EReal) (Wt : S12x64.Idx → EReal) (E : S8x20000x64.Idx),
      (E 0).val = t.val → (E 1).val = n.val → (E 2).val = f.val →
      X (((cfg0.win 0).blk t).view.emb (ix3 (0 : Fin 1) n k)) * Wt (((cfg0.win 1).blk t).view.emb (ix2 k f))
        = X (ix3 (n0 := 8) (n1 := 20000) ⟨(E 0).val, (E 0).isLt⟩ ⟨(E 1).val, (E 1).isLt⟩ k)
            * Wt (ix2 (n1 := 64) k ⟨(E 2).val, (E 2).isLt⟩) := by
    intro X Wt E e0 e1 e2
    have h0 : ((cfg0.win 0).blk t).view.emb (ix3 (0 : Fin 1) n k)
        = ix3 (n0 := 8) (n1 := 20000) ⟨(E 0).val, (E 0).isLt⟩ ⟨(E 1).val, (E 1).isLt⟩ k := by
      funext a; apply Fin.ext
      match a with
      | ⟨0, _⟩ => show win0_0.index t (0 : Fin 3) * 1 + 1 * 0 = (E 0).val; omega
      | ⟨1, _⟩ => show win0_0.index t (1 : Fin 3) * 20000 + 1 * n.val = (E 1).val; omega
      | ⟨2, _⟩ => show win0_0.index t (2 : Fin 3) * 12 + 1 * k.val = k.val; omega
    have h1 : ((cfg0.win 1).blk t).view.emb (ix2 k f) = ix2 (n1 := 64) k ⟨(E 2).val, (E 2).isLt⟩ := by
      funext a; apply Fin.ext
      match a with
      | ⟨0, _⟩ => show win0_1.index t (0 : Fin 2) * 12 + 1 * k.val = k.val; omega
      | ⟨1, _⟩ => show win0_1.index t (1 : Fin 2) * 64 + 1 * f.val = (E 2).val; omega
    rw [h0, h1]
  have hu : u.val = 0 := by omega
  exact factors (V c main_v0) (V c main_arg2) (((cfg0.win 2).blk t).view.emb (ix3 u n f))
    (by show win0_2.index t (0 : Fin 3) * 1 + 1 * u.val = t.val; omega)
    (by show win0_2.index t (1 : Fin 3) * 20000 + 1 * n.val = n.val; omega)
    (by show win0_2.index t (2 : Fin 3) * 64 + 1 * f.val = f.val; omega)

/-- An index of the output array lies in point `t`'s block iff each coordinate lies in the block's
    range on its axis. -/
theorem mem_block (t : Fin cfg0.N) (i : S8x20000x64.Idx) :
    i ∈ ((cfg0.win 2).blk t).view.set ↔ ∀ a : Fin 3, win0_2.index t a * S1x20000x64.size a ≤ (i a).val
      ∧ (i a).val < win0_2.index t a * S1x20000x64.size a + S1x20000x64.size a := by
  show i ∈ ((View.whole main_v1).slice (win0_2.rect t)).set ↔ _
  rw [View.set_slice_whole, Rect.mem_set_unit]
  exact Iff.rfl

/-- Every index of the output array is written: the entry of batch `b` by grid point `b`. -/
theorem covered (i : S8x20000x64.Idx) :
    ∃ t : Fin cfg0.N, (cfg0.win 2).flush t = true ∧ i ∈ ((cfg0.win 2).blk t).view.set := by
  have hi0 : (i 0).val < 8 := (i 0).isLt
  have hi1 : (i 1).val < 20000 := (i 1).isLt
  have hi2 : (i 2).val < 64 := (i 2).isLt
  let t : Fin cfg0.N := ⟨(i 0).val, by show (i 0).val < grid0.N; rw [N_0]; exact hi0⟩
  obtain ⟨-, -, -, -, -, o0, o1, o2⟩ := block_indices t
  have ht : t.val = (i 0).val := rfl
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 20000 ≤ (i 1).val ∧ (i 1).val < win0_2.index t (1 : Fin 3) * 20000 + 20000; omega
  | ⟨2, _⟩ => show win0_2.index t (2 : Fin 3) * 64 ≤ (i 2).val ∧ (i 2).val < win0_2.index t (2 : Fin 3) * 64 + 64; omega

/-- THE HIDDEN-FEATURE ARRAY after the first kernel: `convFeatures` of the transposed features and the
    weights as the kernel finds them. -/
theorem array_eq (c : Dev nD) :
    (dat0 V c).arrAt 2 cfg0.N = convFeatures (V c main_v0) (V c main_arg2) :=
  (dat0 V c).arrAt_eq_of_cover 2 (convFeatures (V c main_v0) (V c main_arg2)) (fun t _ => flushed_eq V c t) covered

end Cert.KernelIdeal.GcnArray

end
-- ==== Proof.DenseBody.lean ====
/-
  The second kernel's arithmetic, read at an index.  Each grid point holds one batch of aggregated
  messages (20000 nodes × 64 hidden features).  The body adds the convolution bias along the hidden
  axis, floors at zero, multiplies by the 64 × 12 projection weights (accumulating into zero; the
  bf16 roundings are the identity over the extended reals), adds the projection bias along the
  output axis and floors at zero again.  So entry (n, t) of the block it stores is
      max(Σ_k max(agg[n, k] + bg[k], 0) · wd[k, t] + bd[t], 0).
-/
import proofs.«174050_j77309411573_2_alg».proof.Proof.Gen.KernelIdeal.Skeleton
import proofs.«174050_j77309411573_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.DenseBody

open Idealize.ShloMosaic Idealize.ShloMosaic.ValueIdx Cert.KernelIdeal Cert.KernelIdeal.Gen Cert.GraphConv

/-- Where the product's two operands are read, coordinate by coordinate: the row index from the
    output's row, the column index from the output's column, the shared one from the summation index. -/
theorem lhs_row (j : S20000x12.Idx) (q : dot_S20000x64_S64x12_S20000x12_1_0_0_1_n_n.contr.Idx) :
    (dot_S20000x64_S64x12_S20000x12_1_0_0_1_n_n.lhsIdx j q 0).val = (j 0).val := by
  unfold DotDims.lhsIdx
  rw [dif_neg (show ¬(0 : Fin S20000x64.rank) ∈ dot_S20000x64_S64x12_S20000x12_1_0_0_1_n_n.lhsBatch by decide), dif_pos (show (0 : Fin S20000x64.rank) ∈ dot_S20000x64_S64x12_S20000x12_1_0_0_1_n_n.lhsNonContracting by decide)]
  rfl
theorem lhs_shared (j : S20000x12.Idx) (q : dot_S20000x64_S64x12_S20000x12_1_0_0_1_n_n.contr.Idx) :
    (dot_S20000x64_S64x12_S20000x12_1_0_0_1_n_n.lhsIdx j q 1).val = (q ⟨0, by decide⟩).val :=
  dot_S20000x64_S64x12_S20000x12_1_0_0_1_n_n.lhsIdx_val_of_single rfl j q
theorem rhs_shared (j : S20000x12.Idx) (q : dot_S20000x64_S64x12_S20000x12_1_0_0_1_n_n.contr.Idx) :
    (dot_S20000x64_S64x12_S20000x12_1_0_0_1_n_n.rhsIdx j q 0).val = (q ⟨0, by decide⟩).val :=
  dot_S20000x64_S64x12_S20000x12_1_0_0_1_n_n.rhsIdx_val_of_single rfl j q
theorem rhs_col (j : S20000x12.Idx) (q : dot_S20000x64_S64x12_S20000x12_1_0_0_1_n_n.contr.Idx) :
    (dot_S20000x64_S64x12_S20000x12_1_0_0_1_n_n.rhsIdx j q 1).val = (j 1).val := by
  unfold DotDims.rhsIdx
  rw [dif_neg (show ¬(1 : Fin S64x12.rank) ∈ dot_S20000x64_S64x12_S20000x12_1_0_0_1_n_n.rhsBatch by decide), dif_pos (show (1 : Fin S64x12.rank) ∈ dot_S20000x64_S64x12_S20000x12_1_0_0_1_n_n.rhsNonContracting by decide)]
  rfl

/-- Rows times weights into a zero accumulator, at row `n` and column `t`: the sum over the
    sixty-four shared coordinates of the row's entry times the column's. -/
theorem rows_times_weights (l : FVec Ideal S20000x64 .bf16) (r : FVec Ideal S64x12 .bf16) (n : Fin 20000) (t : Fin 12) :
    matmul dot_S20000x64_S64x12_S20000x12_1_0_0_1_n_n none l r (constant (F := Ideal) S20000x12 .f32 0x00000000#32) (ix2 n t)
      = ∑ k : Fin 64, l (ix2 n k) * r (ix2 k t) := by
  simp only [matmul]
  rw [Ideal.matmul_constant_zero_apply, ← Equiv.sum_comp (contrEquiv1 dot_S20000x64_S64x12_S20000x12_1_0_0_1_n_n 64 rfl rfl).symm]
  refine Finset.sum_congr rfl fun k _ => ?_
  have hk := contrEquiv1_symm_val dot_S20000x64_S64x12_S20000x12_1_0_0_1_n_n 64 rfl rfl k
  have el : dot_S20000x64_S64x12_S20000x12_1_0_0_1_n_n.lhsIdx (ix2 n t) ((contrEquiv1 dot_S20000x64_S64x12_S20000x12_1_0_0_1_n_n 64 rfl rfl).symm k) = ix2 n k :=
    funext fun a => Fin.ext (by
      match a with
      | ⟨0, _⟩ => exact lhs_row _ _
      | ⟨1, _⟩ => exact (lhs_shared _ _).trans hk)
  have er : dot_S20000x64_S64x12_S20000x12_1_0_0_1_n_n.rhsIdx (ix2 n t) ((contrEquiv1 dot_S20000x64_S64x12_S20000x12_1_0_0_1_n_n 64 rfl rfl).symm k) = ix2 k t :=
    funext fun a => Fin.ext (by
      match a with
      | ⟨0, _⟩ => exact (rhs_shared _ _).trans hk
      | ⟨1, _⟩ => exact rhs_col _ _)
  rw [el, er]

/-- The block the body stores, at node `n` and output feature `t` (the leading unit coordinate `u`
    is the squeezed batch axis). -/
theorem stored_apply (agg : Vec Ideal S1x20000x64 .f32) (bg : Vec Ideal S64 .f32) (wd : Vec Ideal S64x12 .f32)
    (bd : Vec Ideal S12 .f32) (u : Fin 1) (n : Fin 20000) (t : Fin 12) :
    k1_pay1 agg bg wd bd (ix3 u n t)
      = max ((∑ k : Fin 64, max (agg (ix3 (0 : Fin 1) n k) + bg (ix1 k)) floor0 * wd (ix2 k t)) + bd (ix1 t)) floor0 := by
  unfold k1_pay1
  rw [shapeCast_ab_1ab_apply]
  simp only [maximumf_apply, addf_apply, broadcast_apply]
  rw [rows_times_weights, broadcastTo_1b_ab_apply, shapeCast_a_1a_apply]
  refine congrArg₂ max (congrArg₂ (· + ·) (Finset.sum_congr rfl fun k _ => ?_) rfl) rfl
  simp only [truncf_apply, maximumf_apply, addf_apply, broadcast_apply]
  rw [shapeCast_1ab_ab_apply, broadcastTo_1b_ab_apply, shapeCast_a_1a_apply]
  rfl

end Cert.KernelIdeal.DenseBody

end
-- ==== Proof.DenseArray.lean ====
/-
  From blocks to the whole array, for the second kernel.  Its grid has eight points, one per batch:
  point `t` reads batch `t` of the aggregated messages (a 1 × 20000 × 64 block), the two biases and
  the projection weights whole, and writes back batch `t` of the result (a 1 × 20000 × 12 block).
  What a point writes back is the restriction to its block of ONE whole-array function,
  `denseOutput`, of the arrays as the kernel finds them; the eight blocks tile the result, so the
  result array ends equal to that function.
-/
import proofs.«174050_j77309411573_2_alg».proof.Proof.Gen.KernelIdeal.Frame
import proofs.«174050_j77309411573_2_alg».proof.Proof.DenseBody
import proofs.«174050_j77309411573_2_alg».proof.Proof.Spec

set_option maxRecDepth 16384

noncomputable section

namespace Cert.KernelIdeal.DenseArray

open Idealize.ShloMosaic Idealize.ShloMosaic.TcCoe Idealize.ShloMosaic.ValueIdx Idealize.SL.Sem
open Idealize.ShloMosaic.Pipeline (Dat)
open Cert.KernelIdeal Cert.KernelIdeal.Gen Cert.GraphConv

variable (V : (c : Dev nD) → (b : Ref sig .tc) → Buf (Elt Ideal) ((c : Thread nD τ).loc b))

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a; rfl

/-- The block each window takes at grid point `t`: the message and the result windows move along
    the batch axis with `t`; the biases and the weights stay. -/
theorem block_indices : ∀ t : Fin cfg1.N,
    win1_0.index t (0 : Fin 3) = t.val ∧ win1_0.index t (1 : Fin 3) = 0 ∧ win1_0.index t (2 : Fin 3) = 0
    ∧ win1_1.index t (0 : Fin 1) = 0
    ∧ win1_2.index t (0 : Fin 2) = 0 ∧ win1_2.index t (1 : Fin 2) = 0
    ∧ win1_3.index t (0 : Fin 1) = 0
    ∧ win1_4.index t (0 : Fin 3) = t.val ∧ win1_4.index t (1 : Fin 3) = 0 ∧ win1_4.index t (2 : Fin 3) = 0 :=
  (by decide +kernel : ∀ t : Fin grid1.N, _)

/-- What point `t` writes back is block `t` of `denseOutput` of the arrays the kernel is entered with. -/
theorem flushed_eq (c : Dev nD) (t : Fin cfg1.N) :
    (dat1 V c).flushed 4 t = ((cfg1.win 4).blk t).view.read (Elt Ideal)
      (denseOutput (V c main_v19) (V c main_arg3) (V c main_arg4) (V c main_arg5)) := by
  show (cfg1.win 4).cut (grid1.coords t) ((dat1 V c).after 4 t) = _
  rw [after1_4]
  unfold out1_4
  rw [View.canon_unit_zero zero3]
  simp only [View.ld_unit_zero (S := S1x20000x64) zero3, View.ld_unit_zero (S := S64x12) zero2,
    View.ld_unit_zero (S := S64) zero1, View.ld_unit_zero (S := S12) zero1]
  obtain ⟨a0, a1, a2, g0, w0, w1, d0, o0, o1, o2⟩ := block_indices t
  funext j
  obtain ⟨u, n, q, rfl⟩ : ∃ (u : Fin 1) (n : Fin 20000) (q : Fin 12), j = ix3 u n q := ⟨j 0, j 1, j 2, eq_ix3 j⟩
  show k1_pay1 (iblk1 V c 0 t) (iblk1 V c 1 t) (iblk1 V c 2 t) (iblk1 V c 3 t) (ix3 u n q)
    = denseOutput (V c main_v19) (V c main_arg3) (V c main_arg4) (V c main_arg5) (((cfg1.win 4).blk t).view.emb (ix3 u n q))
  refine (DenseBody.stored_apply (iblk1 V c 0 t) (iblk1 V c 1 t) (iblk1 V c 2 t) (iblk1 V c 3 t) u n q).trans ?_
  unfold denseOutput
  -- every read is of an entry array: the message block at (batch t, node n, hidden k), the
  -- convolution bias at k, the weights at (k, q), the projection bias at q; `E` stands for the
  -- array index of the result entry being written
  have reads : ∀ (A : S8x20000x64.Idx → EReal) (Bg : S64.Idx → EReal) (Wd : S64x12.Idx → EReal) (Bd : S12.Idx → EReal)
      (E : S8x20000x12.Idx), (E 0).val = t.val → (E 1).val = n.val → (E 2).val = q.val →
      max ((∑ k : Fin 64, max (A (((cfg1.win 0).blk t).view.emb (ix3 (0 : Fin 1) n k)) + Bg (((cfg1.win 1).blk t).view.emb (ix1 k))) floor0
              * Wd (((cfg1.win 2).blk t).view.emb (ix2 k q)))
            + Bd (((cfg1.win 3).blk t).view.emb (ix1 q))) floor0
        = max ((∑ k : Fin 64, max (A (ix3 (n0 := 8) (n1 := 20000) ⟨(E 0).val, (E 0).isLt⟩ ⟨(E 1).val, (E 1).isLt⟩ k) + Bg (ix1 k)) floor0
              * Wd (ix2 (n1 := 12) k ⟨(E 2).val, (E 2).isLt⟩))
            + Bd (ix1 (n := 12) ⟨(E 2).val, (E 2).isLt⟩)) floor0 := by
    intro A Bg Wd Bd E e0 e1 e2
    have hb : ((cfg1.win 3).blk t).view.emb (ix1 q) = ix1 (n := 12) ⟨(E 2).val, (E 2).isLt⟩ := by
      funext a; apply Fin.ext
      match a with
      | ⟨0, _⟩ => show win1_3.index t (0 : Fin 1) * 12 + 1 * q.val = (E 2).val; omega
    rw [hb]
    refine congrArg₂ max (congrArg₂ (· + ·) (Finset.sum_congr rfl fun k _ => ?_) rfl) rfl
    have h0 : ((cfg1.win 0).blk t).view.emb (ix3 (0 : Fin 1) n k)
        = ix3 (n0 := 8) (n1 := 20000) ⟨(E 0).val, (E 0).isLt⟩ ⟨(E 1).val, (E 1).isLt⟩ k := by
      funext a; apply Fin.ext
      match a with
      | ⟨0, _⟩ => show win1_0.index t (0 : Fin 3) * 1 + 1 * 0 = (E 0).val; omega
      | ⟨1, _⟩ => show win1_0.index t (1 : Fin 3) * 20000 + 1 * n.val = (E 1).val; omega
      | ⟨2, _⟩ => show win1_0.index t (2 : Fin 3) * 64 + 1 * k.val = k.val; omega
    have h1 : ((cfg1.win 1).blk t).view.emb (ix1 k) = ix1 k := by
      funext a; apply Fin.ext
      match a with
      | ⟨0, _⟩ => show win1_1.index t (0 : Fin 1) * 64 + 1 * k.val = k.val; omega
    have h2 : ((cfg1.win 2).blk t).view.emb (ix2 k q) = ix2 (n1 := 12) k ⟨(E 2).val, (E 2).isLt⟩ := by
      funext a; apply Fin.ext
      match a with
      | ⟨0, _⟩ => show win1_2.index t (0 : Fin 2) * 64 + 1 * k.val = k.val; omega
      | ⟨1, _⟩ => show win1_2.index t (1 : Fin 2) * 12 + 1 * q.val = (E 2).val; omega
    rw [h0, h1, h2]
  have hu : u.val = 0 := by omega
  exact reads (V c main_v19) (V c main_arg3) (V c main_arg4) (V c main_arg5) (((cfg1.win 4).blk t).view.emb (ix3 u n q))
    (by show win1_4.index t (0 : Fin 3) * 1 + 1 * u.val = t.val; omega)
    (by show win1_4.index t (1 : Fin 3) * 20000 + 1 * n.val = n.val; omega)
    (by show win1_4.index t (2 : Fin 3) * 12 + 1 * q.val = q.val; omega)

/-- An index of the result array lies in point `t`'s block iff each coordinate lies in the block's
    range on its axis. -/
theorem mem_block (t : Fin cfg1.N) (i : S8x20000x12.Idx) :
    i ∈ ((cfg1.win 4).blk t).view.set ↔ ∀ a : Fin 3, win1_4.index t a * S1x20000x12.size a ≤ (i a).val
      ∧ (i a).val < win1_4.index t a * S1x20000x12.size a + S1x20000x12.size a := by
  show i ∈ ((View.whole main_v20).slice (win1_4.rect t)).set ↔ _
  rw [View.set_slice_whole, Rect.mem_set_unit]
  exact Iff.rfl

/-- Every index of the result array is written: the entry of batch `b` by grid point `b`. -/
theorem covered (i : S8x20000x12.Idx) :
    ∃ t : Fin cfg1.N, (cfg1.win 4).flush t = true ∧ i ∈ ((cfg1.win 4).blk t).view.set := by
  have hi0 : (i 0).val < 8 := (i 0).isLt
  have hi1 : (i 1).val < 20000 := (i 1).isLt
  have hi2 : (i 2).val < 12 := (i 2).isLt
  let t : Fin cfg1.N := ⟨(i 0).val, by show (i 0).val < grid1.N; rw [N_1]; exact hi0⟩
  obtain ⟨-, -, -, -, -, -, -, o0, o1, o2⟩ := block_indices t
  have ht : t.val = (i 0).val := rfl
  refine ⟨t, flush1_4 t, ?_⟩
  rw [mem_block]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 20000 ≤ (i 1).val ∧ (i 1).val < win1_4.index t (1 : Fin 3) * 20000 + 20000; omega
  | ⟨2, _⟩ => show win1_4.index t (2 : Fin 3) * 12 ≤ (i 2).val ∧ (i 2).val < win1_4.index t (2 : Fin 3) * 12 + 12; omega

/-- THE RESULT ARRAY after the second kernel: `denseOutput` of the aggregated messages, the biases and
    the projection weights as the kernel finds them. -/
theorem array_eq (c : Dev nD) :
    (dat1 V c).arrAt 4 cfg1.N = denseOutput (V c main_v19) (V c main_arg3) (V c main_arg4) (V c main_arg5) :=
  (dat1 V c).arrAt_eq_of_cover 4 (denseOutput (V c main_v19) (V c main_arg3) (V c main_arg4) (V c main_arg5))
    (fun t _ => flushed_eq V c t) covered

end Cert.KernelIdeal.DenseArray

end
-- ==== Proof.KernelValue.lean ====
/-
  The idealized kernel's result as ONE term of the launch memory.  Read backwards from the end: the
  result buffer is the second kernel's output array, which is `denseOutput` of what that kernel is
  entered with; its message input is what the host stretch in between leaves there, `aggregate` of
  the first kernel's output array and of three arguments nobody has written; the first kernel's
  output array is `convFeatures` of what THAT kernel is entered with, the transposed input and the
  convolution weights.  Every other array either kernel reads is an argument, still as launched.
-/
import proofs.«174050_j77309411573_2_alg».proof.Proof.WholeRun
import proofs.«174050_j77309411573_2_alg».proof.Proof.GcnArray
import proofs.«174050_j77309411573_2_alg».proof.Proof.DenseArray
import proofs.«174050_j77309411573_2_alg».proof.Proof.RefSide
import Idealize.ShloMosaic.Lib.StableHlo.Run

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen
open Cert.ReferenceIdeal.RefValue (aggregate)

/-! ## The message-passing stretch, for any float values

Stated for an arbitrary float instance, where each host operation is an opaque function of its
operands: the kernel's spelling of the stretch and the reference's are then the same term up to the
names of the shape records. -/

variable {F : FTy → Type} [FloatOps F]

/-- The message-passing stretch in the kernel's own spelling, as a function of the hidden features,
    the edge weights and the two index lists. -/
def passMessages (h : (⟨S8x20000x64, .f32⟩ : BufTy).Contents (Elt F)) (ew : (⟨S320000, .f32⟩ : BufTy).Contents (Elt F))
    (src dst : (⟨S320000, .i32⟩ : BufTy).Contents (Elt F)) : (⟨S8x20000x64, .f32⟩ : BufTy).Contents (Elt F) :=
  Host.scatterAdd (F := F) scatter_S8x20000x64_S320000x1_S8x320000x64_02_1_1_1
    (broadcastInDim S8x20000x64 ![] bcast_S_S8x20000x64 (constant (F := F) S_ .f32 0x00000000#32))
    (broadcastInDim S320000x1 ![0] bcast_S320000_S320000x1_0
      (select (cmpi .slt dst (broadcastInDim S320000 ![] bcast_S_S320000 (constantI S_ 32 0#32)))
        (addi dst (broadcastInDim S320000 ![] bcast_S_S320000 (constantI S_ 32 20000#32))) dst))
    (mulf
      (Host.gather gather_S8x20000x64_S320000x1_S8x320000x64_02_1_n_n_1_1_8164 h
        (broadcastInDim S320000x1 ![0] bcast_S320000_S320000x1_0
          (select (cmpi .slt src (broadcastInDim S320000 ![] bcast_S_S320000 (constantI S_ 32 0#32)))
            (addi src (broadcastInDim S320000 ![] bcast_S_S320000 (constantI S_ 32 20000#32))) src)))
      (broadcastInDim S8x320000x64 ![0, 1, 2] bcast_S1x320000x1_S8x320000x64_0_1_2
        (broadcastInDim S1x320000x1 ![1] bcast_S320000_S1x320000x1_1 ew)))

/-- The two spellings are one function. -/
theorem passMessages_eq (h : (⟨S8x20000x64, .f32⟩ : BufTy).Contents (Elt F)) (ew : (⟨S320000, .f32⟩ : BufTy).Contents (Elt F))
    (src dst : (⟨S320000, .i32⟩ : BufTy).Contents (Elt F)) :
    passMessages h ew src dst = aggregate h ew src dst := rfl

variable (m : (ℓ : Loc nD τ sig) → Buf (Elt F) ℓ) (ρ : Dev nD → PrngReg)

set_option maxHeartbeats 2000000 in
/-- What the stretch leaves in the second kernel's message input, from the buffers as the first
    kernel left them. -/
theorem entry1_passed (c : Dev nD) :
    V3 m ρ c main_v19
      = passMessages (W2 m ρ c (Proc.devRef .tc main_v1)) (W2 m ρ c (Proc.devRef .tc main_arg1))
          (W2 m ρ c (Proc.devRef .tc main_arg6)) (W2 m ρ c (Proc.devRef .tc main_arg7)) := by
  show StableHlo.after hostOps1 (W2 m ρ c) (Proc.devRef .tc main_v19) = _
  unfold passMessages
  dsimp only [hostOps1]
  after_results_simp <;> rfl

end Cert.KernelIdeal.Stretch

namespace Cert.KernelIdeal.KernelValue

open Idealize.ShloMosaic Idealize.ShloMosaic.TcCoe Idealize.ShloMosaic.ValueIdx Idealize.SL.Sem Idealize.ShloMosaic.StableHlo
open Cert.KernelIdeal Cert.KernelIdeal.Gen Cert.GraphConv
open Cert.ReferenceIdeal.RefValue (aggregate network)

variable (m : (ℓ : Loc nD τ sig) → Buf (Elt Ideal) ℓ) (ρ : Dev nD → PrngReg)

/-! ## Before the first kernel: the transpose -/

/-- The first kernel is entered with the input transposed to (batch, node, time). -/
theorem entry0_features (c : Dev nD) :
    V1 m ρ c main_v0 = transpose S8x20000x12 [0, 2, 1] (m ((c : Thread nD τ).loc main_arg0)) transposes_S8x12x20000_S8x20000x12_0_2_1 := by
  show StableHlo.after hostOps0 (W0 m ρ c) (Proc.devRef .tc main_v0) = _
  dsimp only [hostOps0]; after_results

/-- The transpose writes only its own result: `arg1` enters the first kernel as launched. -/
theorem entry0_arg1 (c : Dev nD) : W1 m ρ c (Proc.devRef .tc main_arg1) = m ((c : Thread nD τ).loc main_arg1) := by
  show StableHlo.after hostOps0 (W0 m ρ c) (Proc.devRef .tc main_arg1) = _
  dsimp only [hostOps0]; after_results

/-- The transpose writes only its own result: `arg2` enters the first kernel as launched. -/
theorem entry0_arg2 (c : Dev nD) : W1 m ρ c (Proc.devRef .tc main_arg2) = m ((c : Thread nD τ).loc main_arg2) := by
  show StableHlo.after hostOps0 (W0 m ρ c) (Proc.devRef .tc main_arg2) = _
  dsimp only [hostOps0]; after_results

/-- The transpose writes only its own result: `arg3` enters the first kernel as launched. -/
theorem entry0_arg3 (c : Dev nD) : W1 m ρ c (Proc.devRef .tc main_arg3) = m ((c : Thread nD τ).loc main_arg3) := by
  show StableHlo.after hostOps0 (W0 m ρ c) (Proc.devRef .tc main_arg3) = _
  dsimp only [hostOps0]; after_results

/-- The transpose writes only its own result: `arg4` enters the first kernel as launched. -/
theorem entry0_arg4 (c : Dev nD) : W1 m ρ c (Proc.devRef .tc main_arg4) = m ((c : Thread nD τ).loc main_arg4) := by
  show StableHlo.after hostOps0 (W0 m ρ c) (Proc.devRef .tc main_arg4) = _
  dsimp only [hostOps0]; after_results

/-- The transpose writes only its own result: `arg5` enters the first kernel as launched. -/
theorem entry0_arg5 (c : Dev nD) : W1 m ρ c (Proc.devRef .tc main_arg5) = m ((c : Thread nD τ).loc main_arg5) := by
  show StableHlo.after hostOps0 (W0 m ρ c) (Proc.devRef .tc main_arg5) = _
  dsimp only [hostOps0]; after_results

/-- The transpose writes only its own result: `arg6` enters the first kernel as launched. -/
theorem entry0_arg6 (c : Dev nD) : W1 m ρ c (Proc.devRef .tc main_arg6) = m ((c : Thread nD τ).loc main_arg6) := by
  show StableHlo.after hostOps0 (W0 m ρ c) (Proc.devRef .tc main_arg6) = _
  dsimp only [hostOps0]; after_results

/-- The transpose writes only its own result: `arg7` enters the first kernel as launched. -/
theorem entry0_arg7 (c : Dev nD) : W1 m ρ c (Proc.devRef .tc main_arg7) = m ((c : Thread nD τ).loc main_arg7) := by
  show StableHlo.after hostOps0 (W0 m ρ c) (Proc.devRef .tc main_arg7) = _
  dsimp only [hostOps0]; after_results

/-! ## After the first kernel -/

/-- The hidden features: the first kernel's output array. -/
theorem exit0_hidden (c : Dev nD) :
    W2 m ρ c (Proc.devRef .tc main_v1)
      = convFeatures (transpose S8x20000x12 [0, 2, 1] (m ((c : Thread nD τ).loc main_arg0)) transposes_S8x12x20000_S8x20000x12_0_2_1)
          (m ((c : Thread nD τ).loc main_arg2)) := by
  have h : W2 m ρ c (Proc.devRef .tc main_v1) = (dat0 (V1 m ρ) c).arrAt 2 cfg0.N := W2_arr m ρ c 2
  rw [h, GcnArray.array_eq (V1 m ρ) c, entry0_features m ρ c]
  exact congrArg _ (entry0_arg2 m ρ c)

/-- `arg1` is not one of the first kernel's arrays: it leaves that kernel as launched. -/
theorem exit0_arg1 (c : Dev nD) : W2 m ρ c (Proc.devRef .tc main_arg1) = m ((c : Thread nD τ).loc main_arg1) :=
  (W2_of_ne m ρ c main_arg1 (by decide)).trans (entry0_arg1 m ρ c)

/-- `arg3` is not one of the first kernel's arrays: it leaves that kernel as launched. -/
theorem exit0_arg3 (c : Dev nD) : W2 m ρ c (Proc.devRef .tc main_arg3) = m ((c : Thread nD τ).loc main_arg3) :=
  (W2_of_ne m ρ c main_arg3 (by decide)).trans (entry0_arg3 m ρ c)

/-- `arg4` is not one of the first kernel's arrays: it leaves that kernel as launched. -/
theorem exit0_arg4 (c : Dev nD) : W2 m ρ c (Proc.devRef .tc main_arg4) = m ((c : Thread nD τ).loc main_arg4) :=
  (W2_of_ne m ρ c main_arg4 (by decide)).trans (entry0_arg4 m ρ c)

/-- `arg5` is not one of the first kernel's arrays: it leaves that kernel as launched. -/
theorem exit0_arg5 (c : Dev nD) : W2 m ρ c (Proc.devRef .tc main_arg5) = m ((c : Thread nD τ).loc main_arg5) :=
  (W2_of_ne m ρ c main_arg5 (by decide)).trans (entry0_arg5 m ρ c)

/-- `arg6` is not one of the first kernel's arrays: it leaves that kernel as launched. -/
theorem exit0_arg6 (c : Dev nD) : W2 m ρ c (Proc.devRef .tc main_arg6) = m ((c : Thread nD τ).loc main_arg6) :=
  (W2_of_ne m ρ c main_arg6 (by decide)).trans (entry0_arg6 m ρ c)

/-- `arg7` is not one of the first kernel's arrays: it leaves that kernel as launched. -/
theorem exit0_arg7 (c : Dev nD) : W2 m ρ c (Proc.devRef .tc main_arg7) = m ((c : Thread nD τ).loc main_arg7) :=
  (W2_of_ne m ρ c main_arg7 (by decide)).trans (entry0_arg7 m ρ c)

/-! ## Before the second kernel: the message-passing stretch -/

/-- The second kernel is entered with the aggregated messages: the host stretch's scatter-add result. -/
theorem entry1_messages (c : Dev nD) :
    V3 m ρ c main_v19
      = aggregate (W2 m ρ c (Proc.devRef .tc main_v1)) (W2 m ρ c (Proc.devRef .tc main_arg1))
          (W2 m ρ c (Proc.devRef .tc main_arg6)) (W2 m ρ c (Proc.devRef .tc main_arg7)) :=
  (Stretch.entry1_passed m ρ c).trans (Stretch.passMessages_eq _ _ _ _)

/-- The message-passing stretch does not write `arg3`: it enters the second kernel as launched. -/
theorem entry1_arg3 (c : Dev nD) : V3 m ρ c main_arg3 = m ((c : Thread nD τ).loc main_arg3) := by
  show StableHlo.after hostOps1 (W2 m ρ c) (Proc.devRef .tc main_arg3) = _
  dsimp only [hostOps1]; after_results
  exact exit0_arg3 m ρ c

/-- The message-passing stretch does not write `arg4`: it enters the second kernel as launched. -/
theorem entry1_arg4 (c : Dev nD) : V3 m ρ c main_arg4 = m ((c : Thread nD τ).loc main_arg4) := by
  show StableHlo.after hostOps1 (W2 m ρ c) (Proc.devRef .tc main_arg4) = _
  dsimp only [hostOps1]; after_results
  exact exit0_arg4 m ρ c

/-- The message-passing stretch does not write `arg5`: it enters the second kernel as launched. -/
theorem entry1_arg5 (c : Dev nD) : V3 m ρ c main_arg5 = m ((c : Thread nD τ).loc main_arg5) := by
  show StableHlo.after hostOps1 (W2 m ρ c) (Proc.devRef .tc main_arg5) = _
  dsimp only [hostOps1]; after_results
  exact exit0_arg5 m ρ c

/-! ## The result -/

/-- `network` of the eight argument arrays as launched on core `c`. -/
abbrev launched (c : Dev nD) : (⟨S8x20000x12, .f32⟩ : BufTy).Contents (Elt Ideal) :=
  network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- THE KERNEL'S RESULT ARRAY at the end of the run is `network` of the arguments as launched. -/
theorem result_eq (c : Dev nD) : W4 m ρ c (Proc.devRef .tc main_v20) = launched m c := by
  have h : W4 m ρ c (Proc.devRef .tc main_v20) = (dat1 (V3 m ρ) c).arrAt 4 cfg1.N := W4_arr m ρ c 4
  rw [h, DenseArray.array_eq (V3 m ρ) c, entry1_messages m ρ c, exit0_hidden m ρ c, exit0_arg1 m ρ c, exit0_arg6 m ρ c,
    exit0_arg7 m ρ c, entry1_arg3 m ρ c, entry1_arg4 m ρ c, entry1_arg5 m ρ c]
  rfl

/-- THE RUN, with its result named: every weakly fair execution of the idealized kernel terminates,
    nothing faulting, its result buffer at `network` of the arguments and the arguments unchanged. -/
theorem run : θ_run defs (onTc (τ := τ) (main (F := Ideal))) ⟨m, fun _ => 0, ρ⟩ (fun r => ∀ c : Dev nD,
      r.2.mem ((c.tc : Thread nD τ).loc main_v20) = launched m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v20 (by decide))).trans (result_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩)
    (WholeRun.run m ρ)

end Cert.KernelIdeal.KernelValue

end
-- ==== Proof.lean ====
/-
  A graph-convolution layer and a dense projection, computed two ways, are the same function over
  the extended reals.

  The input holds, for each of 8 batches and 20000 graph nodes, 12 time features (stored time-major,
  so it is transposed first).  The computation has three stages:
    1. hidden features: each node's 12 features times a 12 × 64 weight matrix;
    2. message passing: for each of 320000 weighted edges, the source node's hidden row, scaled by
       the edge weight, is added into the target node's row of an array that starts at zero;
    3. output: add a bias, floor at zero, multiply by a 64 × 12 weight matrix, add a bias, floor at
       zero.
  The reference does all three with host operations.  The kernel does stages 1 and 3 as two tiled
  kernels, one grid point per batch, rounding the matrix operands to bf16 (the identity over the
  extended reals) and accumulating into zero, and stage 2 with the very same host operations.

  The proof: each kernel's output array is the restriction-free whole-array function its blocks are
  blocks of (`convFeatures`, `denseOutput`: Proof/GcnArray.lean, Proof/DenseArray.lean over the
  payloads read in Proof/GcnBody.lean, Proof/DenseBody.lean); reading the kernel's result buffer back
  through the run's boundaries gives ONE term of the launch memory (Proof/KernelValue.lean over
  Proof/WholeRun.lean); the reference's result is the same term (Proof/RefSide.lean), stage 2 being
  carried on both sides as one unopened function.  Only sums of products, sums and maxima are
  compared term by term, so no law that needs finiteness is used and the precondition is never opened.
  The ideal pass rewrote nothing, so there is nothing to preserve.
-/
import proofs.«174050_j77309411573_2_alg».proof.Defs
import proofs.«174050_j77309411573_2_alg».proof.Proof.Gen.Kernel
import proofs.«174050_j77309411573_2_alg».proof.Proof.Gen.Kernel.Skeleton
import proofs.«174050_j77309411573_2_alg».proof.Proof.Gen.Kernel.Launch
import proofs.«174050_j77309411573_2_alg».proof.Proof.Gen.Kernel.Points
import proofs.«174050_j77309411573_2_alg».proof.Proof.Gen.Kernel.Frame
import proofs.«174050_j77309411573_2_alg».proof.Proof.Gen.KernelIdeal
import proofs.«174050_j77309411573_2_alg».proof.Proof.Gen.KernelIdeal.Skeleton
import proofs.«174050_j77309411573_2_alg».proof.Proof.Gen.KernelIdeal.Launch
import proofs.«174050_j77309411573_2_alg».proof.Proof.Gen.KernelIdeal.Points
import proofs.«174050_j77309411573_2_alg».proof.Proof.Gen.KernelIdeal.Frame
import proofs.«174050_j77309411573_2_alg».proof.Proof.Gen.ReferenceIdeal
import proofs.«174050_j77309411573_2_alg».proof.Proof.Gen.Pre_finite_inputs
import proofs.«174050_j77309411573_2_alg».proof.Proof.Gen.ReferenceIdeal.Run
import proofs.«174050_j77309411573_2_alg».proof.Proof.Gen.ReferenceIdeal.Read
import proofs.«174050_j77309411573_2_alg».proof.Proof.RefSide
import proofs.«174050_j77309411573_2_alg».proof.Proof.KernelValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the eight arguments both idealized programs run, and both result arrays
    are `network` of those arguments. -/
theorem algebraic : Cert.algebraic_KernelIdeal_ReferenceIdeal := by
  intro m ρ m' ρ' _ hagree
  refine ⟨fun c => Cert.KernelIdeal.KernelValue.launched m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v28_eq, Cert.ReferenceIdeal.RefValue.result_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
